-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S64x4096 : Shape := ⟨2, ![64, 4096]⟩
abbrev S64 : Shape := ⟨1, ![64]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4096x4096 .f32) (main_arg1 : FVec F S64x4096 .f32) (main_arg2 : FVec F S64 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4096x4096 : Shape := ⟨2, ![4096, 4096]⟩
abbrev S64x4096 : Shape := ⟨2, ![64, 4096]⟩
abbrev S64 : Shape := ⟨1, ![64]⟩
abbrev S2x8x4096 : Shape := ⟨3, ![2, 8, 4096]⟩
abbrev S256x4096 : Shape := ⟨2, ![256, 4096]⟩
abbrev S1x8x4096 : Shape := ⟨3, ![1, 8, 4096]⟩
abbrev S4096 : Shape := ⟨1, ![4096]⟩
abbrev S1x4096 : Shape := ⟨2, ![1, 4096]⟩
abbrev S1x1x4096 : Shape := ⟨3, ![1, 1, 4096]⟩
abbrev S2x1x4096 : Shape := ⟨3, ![2, 1, 4096]⟩
abbrev S2x4096 : Shape := ⟨2, ![2, 4096]⟩
abbrev S_ : Shape := ⟨0, ![]⟩
abbrev S1x64 : Shape := ⟨2, ![1, 64]⟩
abbrev S4096x64 : Shape := ⟨2, ![4096, 64]⟩
abbrev S256x64 : Shape := ⟨2, ![256, 64]⟩

abbrev nBuf : Space → Nat
  | .hbm => 18
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S64, .f32⟩
  | .hbm, ⟨3, _⟩ => ⟨S2x8x4096, .f32⟩
  | .hbm, ⟨4, _⟩ => ⟨S2x8x4096, .f32⟩
  | .hbm, ⟨5, _⟩ => ⟨S2x1x4096, .f32⟩
  | .hbm, ⟨6, _⟩ => ⟨S2x4096, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S2x1x4096, .f32⟩
  | .hbm, ⟨11, _⟩ => ⟨S2x4096, .f32⟩
  | .hbm, ⟨12, _⟩ => ⟨S_, .f32⟩
  | .hbm, ⟨13, _⟩ => ⟨S4096, .f32⟩
  | .hbm, ⟨14, _⟩ => ⟨S1x4096, .f32⟩
  | .hbm, ⟨15, _⟩ => ⟨S64x4096, .bf16⟩
  | .hbm, ⟨16, _⟩ => ⟨S1x64, .f32⟩
  | .hbm, ⟨17, _⟩ => ⟨S4096x64, .f32⟩
  | .local _ .vmem, ⟨0, _⟩ => ⟨S256x4096, .f32⟩
  | .local _ .vmem, ⟨1, _⟩ => ⟨S256x4096, .f32⟩
  | .local _ .vmem, ⟨2, _⟩ => ⟨S1x8x4096, .f32⟩
  | .local _ .vmem, ⟨3, _⟩ => ⟨S1x8x4096, .f32⟩
  | .local _ .vmem, ⟨4, _⟩ => ⟨S1x8x4096, .f32⟩
  | .local _ .vmem, ⟨5, _⟩ => ⟨S1x8x4096, .f32⟩
  | .local _ .vmem, ⟨6, _⟩ => ⟨S256x4096, .f32⟩
  | .local _ .vmem, ⟨7, _⟩ => ⟨S256x4096, .f32⟩
  | .local _ .vmem, ⟨8, _⟩ => ⟨S1x4096, .f32⟩
  | .local _ .vmem, ⟨9, _⟩ => ⟨S1x4096, .f32⟩
  | .local _ .vmem, ⟨10, _⟩ => ⟨S64x4096, .bf16⟩
  | .local _ .vmem, ⟨11, _⟩ => ⟨S1x64, .f32⟩
  | .local _ .vmem, ⟨12, _⟩ => ⟨S256x64, .f32⟩
  | .local _ .vmem, ⟨13, _⟩ => ⟨S256x64, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1x8x4096_S1x8x4096_0_0_0 : ∀ a, (![0, 0, 0] : Fin 3 → Nat) a + S1x8x4096.size a ≤ S1x8x4096.size a
  h_S1x8x4096 : 0 < S1x8x4096.numel
  inb_S256x4096_S256x4096_0_0 : ∀ a, (![0, 0] : Fin 2 → Nat) a + S256x4096.size a ≤ S256x4096.size a
  h_S256x4096 : 0 < S256x4096.numel
  reduces_S256x4096_S4096 : S256x4096.Reduces [0] S4096
  shapeCasts_S4096_S1x4096 : S4096.ShapeCasts S1x4096
  shapeCasts_S1x8x4096_S1x8x4096 : S1x8x4096.ShapeCasts S1x8x4096
  shapeCasts_S1x4096_S1x1x4096 : S1x4096.ShapeCasts S1x1x4096
  broadcasts_S1x1x4096_S1x8x4096 : S1x1x4096.Broadcasts S1x8x4096
  slices_S2x8x4096_S2x1x4096_0_0_0 : S2x8x4096.Slices ![0, 0, 0] S2x1x4096
  shapeCasts_S2x1x4096_S2x4096 : S2x1x4096.ShapeCasts S2x4096
  reducesTo_S2x4096_S4096_d0 : S2x4096.ReducesTo [0] S4096
  h_S_ : 0 < S_.numel
  bcast_S4096_S1x4096_1 : S4096.BroadcastsInDim S1x4096 (![1] : Fin 1 → Fin S1x4096.rank)
  bitsLt_bf16_f32 : FTy.bits .bf16 < FTy.bits .f32
  shapeCasts_S64_S1x64 : S64.ShapeCasts S1x64
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  dot_S256x4096_S64x4096_S256x64_1_1_0_0_n_n_wf : DotDims.WF S256x4096 S64x4096 S256x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x4096.size a ≤ S2x8x4096.size a
  hwx0_1 : ∀ i : grid0.Coords, EltTy.bits .f32 = 32 ∨ (Rect.block (s := S2x8x4096) S1x8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x4096.size a ≤ S2x8x4096.size a
  hwx0_2 : ∀ i : grid0.Coords, EltTy.bits .f32 = 32 ∨ (Rect.block (s := S2x8x4096) S1x8x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x4096.size a ≤ S64x4096.size a
  hwx1_3 : ∀ i : grid1.Coords, EltTy.bits .bf16 = 32 ∨ (Rect.block (s := S64x4096) S64x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S4096x64.size a
  hwx1_5 : ∀ i : grid1.Coords, EltTy.bits .f32 = 32 ∨ (Rect.block (s := S4096x64) S256x64.size (cc1_transform_5 i) (hinb1_5 i)).WholeWords (EltTy.packing .f32)

variable [Facts₀]

def dot_S256x4096_S64x4096_S256x64_1_1_0_0_n_n : DotDims S256x4096 S64x4096 S256x64 where
  lhsContracting := [1]
  rhsContracting := [1]
  lhsNonContracting := [0]
  rhsNonContracting := [0]
  lhsBatch := []
  rhsBatch := []
  wf := dot_S256x4096_S64x4096_S256x64_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x8x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x8x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S64x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S256x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S64x4096 : Shape := ⟨2, ![64, 4096]⟩
abbrev S64 : Shape := ⟨1, ![64]⟩
abbrev S_ : Shape := ⟨0, ![]⟩
abbrev S4096 : Shape := ⟨1, ![4096]⟩
abbrev S1x4096 : Shape := ⟨2, ![1, 4096]⟩
abbrev S4096x64 : Shape := ⟨2, ![4096, 64]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S64, .f32⟩
  | .hbm, ⟨3, _⟩ => ⟨S_, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S1x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x64, .f32⟩
  | .hbm, ⟨31, _⟩ => ⟨S4096x64, .f32⟩
  | .hbm, ⟨32, _⟩ => ⟨S1x64, .f32⟩
  | .hbm, ⟨33, _⟩ => ⟨S4096x64, .f32⟩
  | .hbm, ⟨34, _⟩ => ⟨S4096x64, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  reducesTo_S4096x4096_S4096_d0 : S4096x4096.ReducesTo [0] S4096
  h_S_ : 0 < S_.numel
  bcast_S4096_S1x4096_1 : S4096.BroadcastsInDim S1x4096 (![1] : Fin 1 → Fin S1x4096.rank)
  bcast_S_S4096x4096 : S_.BroadcastsInDim S4096x4096 (![] : Fin 0 → Fin S4096x4096.rank)
  bcast_S1x4096_S4096x4096_0_1 : S1x4096.BroadcastsInDim S4096x4096 (![0, 1] : Fin 2 → Fin S4096x4096.rank)
  transposes_S64x4096_S4096x64_1_0 : S64x4096.Transposes [1, 0] S4096x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.KernelRun.lean ====
/-
  The idealized kernel's run, with its result array named.

  The program is two grid regions with a stretch of host operations between them.  Every weakly fair
  execution terminates, and at the end each unscoped buffer holds the contents the last boundary gives it:
  the first region's two output arrays as its write-backs leave them, the host stretch's buffers as the
  operations' terms of those, the second region's output array as ITS write-backs leave it.  From that one
  statement the result buffer is read off as the second region's folded write-backs, and the three
  argument buffers as launched.
-/
import proofs.«177342_j21766894256326_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and every unscoped buffer of every core ends at
    the contents of the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The run with the result array named: it ends holding the second region's write-backs folded over that
    region's entry contents, and the argument arrays end as launched. -/
theorem run_out : θ_run defs (onTc (τ := τ) (main (F := F))) ⟨m, fun _ => 0, ρ⟩ (fun r => ∀ c : Dev nD,
      r.2.mem ((c.tc : Thread nD τ).loc main_v11) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (mem_uc main_v11 (by decide))).trans (W3_arr m ρ c 5),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)
    (run_all m ρ)

end Cert.KernelIdeal.RunValue

end
-- ==== Proof.PairDist.lean ====
/-
  The arithmetic that both programs compute, over the extended reals, and the one law of sums that joins them.

  For a data array `x` of 4096 rows and 4096 columns let `S k` and `Q k` be the sums of column `k` of `x`
  and of its squares.  Entry `(r, k)` of the intermediate array is

      log (sqrt (max (Q k - 2 · x r k · S k + 4096 · (x r k)², 0)) + ε),

  and the result at `(r, o)` is the inner product of row `r` of that array with row `o` of the weights, plus
  the bias at `o`.  One program forms each column sum in a single pass over all 4096 rows.  The other adds
  256 rows at a time, eight such blocks into one running total, two running totals at the end.  Addition on
  the extended reals is commutative and associative, so the two groupings give the same sum; nothing else
  about the two programs differs, and no finiteness is used.
-/
import Idealize.ShloMosaic.PureOps.Ideal
import Idealize.ShloMosaic.PureOps.Ideal.Laws

noncomputable section

namespace Cert.PairDist

open Idealize.ShloMosaic

/-! ## Regrouping a sum over a range -/

section Sums

variable {M : Type} [AddCommMonoid M]

/-- A sum over `a · b` consecutive naturals is the sum over `a` consecutive blocks of `b`. -/
theorem sum_range_mul (g : ℕ → M) (a b : ℕ) :
    ∑ n ∈ Finset.range (a * b), g n = ∑ i ∈ Finset.range a, ∑ r ∈ Finset.range b, g (b * i + r) := by
  induction a with
  | zero => simp
  | succ a ih =>
    rw [Nat.add_mul, Nat.one_mul, Finset.sum_range_add, ih, Finset.sum_range_succ, Nat.mul_comm a b]

/-- The sum of block `n`: the 256 consecutive terms from `256 · n`. -/
def blockSum (g : ℕ → M) (n : ℕ) : M := ∑ r ∈ Finset.range 256, g (256 * n + r)

/-- The running total after block `n`, restarted at every eighth block: the blocks from the last multiple of
    eight up to `n`. -/
def runSum (g : ℕ → M) (n : ℕ) : M := ∑ j ∈ Finset.range (n % 8 + 1), blockSum g (8 * (n / 8) + j)

/-- At a multiple of eight the running total is restarted: it is that block alone. -/
theorem runSum_first (g : ℕ → M) (n : ℕ) (h : n % 8 = 0) : runSum g n = blockSum g n := by
  unfold runSum
  rw [h, Nat.zero_add, Finset.sum_range_one]
  exact congrArg (blockSum g) (by omega)

/-- Elsewhere it is the previous running total plus the new block. -/
theorem runSum_next (g : ℕ → M) (n : ℕ) (h : ¬ (n + 1) % 8 = 0) :
    runSum g (n + 1) = runSum g n + blockSum g (n + 1) := by
  have h1 : (n + 1) % 8 = n % 8 + 1 := by omega
  have h2 : (n + 1) / 8 = n / 8 := by omega
  unfold runSum
  rw [h1, h2, Finset.sum_range_succ]
  exact congrArg (fun z => (∑ j ∈ Finset.range (n % 8 + 1), blockSum g (8 * (n / 8) + j)) + blockSum g z) (by omega)

/-- After the eighth block of a group the running total is the whole group. -/
theorem runSum_last (g : ℕ → M) (i : ℕ) :
    runSum g (8 * i + 7) = ∑ j ∈ Finset.range 8, blockSum g (8 * i + j) := by
  have h1 : (8 * i + 7) % 8 = 7 := by omega
  have h2 : (8 * i + 7) / 8 = i := by omega
  unfold runSum
  rw [h1, h2]

/-- The two groups' totals add up to the sum of all 4096 terms. -/
theorem sum_runSum (g : ℕ → M) :
    ∑ i ∈ Finset.range 2, runSum g (8 * i + 7) = ∑ a ∈ Finset.range 4096, g a := by
  have h1 : ∑ a ∈ Finset.range 4096, g a = ∑ t ∈ Finset.range 16, blockSum g t := sum_range_mul g 16 256
  have h2 : ∑ t ∈ Finset.range 16, blockSum g t
      = ∑ i ∈ Finset.range 2, ∑ j ∈ Finset.range 8, blockSum g (8 * i + j) := sum_range_mul (blockSum g) 2 8
  rw [h1, h2]
  exact Finset.sum_congr rfl fun i _ => runSum_last g i

/-- A function on the 4096 row numbers, continued by zero to every natural. -/
def tot (f : Fin 4096 → M) (a : ℕ) : M := if h : a < 4096 then f ⟨a, h⟩ else 0

theorem tot_val (f : Fin 4096 → M) (k : Fin 4096) : tot f k.val = f k := by
  unfold tot
  rw [dif_pos k.isLt]

theorem tot_of_lt (f : Fin 4096 → M) (a : ℕ) (h : a < 4096) : tot f a = f ⟨a, h⟩ := by
  unfold tot
  rw [dif_pos h]

/-- The sum over the row numbers is the sum of the continued function over the first 4096 naturals. -/
theorem sum_tot (f : Fin 4096 → M) : ∑ k : Fin 4096, f k = ∑ a ∈ Finset.range 4096, tot f a := by
  rw [Finset.sum_range]
  exact Finset.sum_congr rfl fun k _ => (tot_val f k).symm

/-- THE LAW: summing a column block by block, eight blocks to a running total and the two totals together,
    is summing it over all its rows. -/
theorem groups_eq_sum (f : Fin 4096 → M) :
    ∑ i ∈ Finset.range 2, runSum (tot f) (8 * i + 7) = ∑ k : Fin 4096, f k :=
  (sum_runSum (tot f)).trans (sum_tot f).symm

end Sums

/-! ## The arithmetic -/

/-- One entry of the intermediate array, from the column's sum of squares `q`, its sum `s` and the entry `x`. -/
def logDist (q s x : EReal) : EReal :=
  Ideal.log (Ideal.sqrt (max (q - Ideal.ofBits .f32 0x40000000#32 * x * s
      + Ideal.ofBits .f32 0x45800000#32 * (x * x)) (Ideal.ofBits .f32 0x00000000#32))
    + Ideal.ofBits .f32 0x358637BD#32)

/-- A column's sum as the one-pass program forms it: the initial value, then every row. -/
def colSum (X : Fin 4096 → Fin 4096 → EReal) (k : Fin 4096) : EReal :=
  Ideal.ofBits .f32 0x00000000#32 + ∑ n : Fin 4096, X n k

/-- The result at row `r`, output `o`, from the data, the weights, the bias and the two vectors of column
    sums. -/
def result (X : Fin 4096 → Fin 4096 → EReal) (W : Fin 64 → Fin 4096 → EReal) (b : Fin 64 → EReal)
    (S Q : Fin 4096 → EReal) (r : Fin 4096) (o : Fin 64) : EReal :=
  (∑ k : Fin 4096, logDist (Q k) (S k) (X r k) * W o k) + b o

end Cert.PairDist

end
-- ==== Proof.ColSums.lean ====
/-
  The first region: per column, the sum of the data and the sum of its squares, accumulated over the grid.

  The grid has sixteen points; point `t` reads rows `256 t … 256 t + 255` of the data.  Each of the two
  outputs keeps one block of eight equal rows per group of eight points: at the first point of a group the
  block is set to zero and the block's column sums are added to it, at every later point the column sums
  are added to what the point before left.  So after point `n` the block holds, in every row and at
  column `d`, the sum over the rows read since the last multiple of eight: the running total of the
  blocks' sums.  The block is written back after the eighth point of its group.
-/
import proofs.«177342_j21766894256326_2_alg».proof.Proof.Gen.KernelIdeal.Frame
import proofs.«177342_j21766894256326_2_alg».proof.Proof.PairDist
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.ColSums

open Cert.KernelIdeal Cert.KernelIdeal.Gen Idealize.ShloMosaic Idealize.ShloMosaic.TcCoe Idealize.SL.Sem
open Idealize.ShloMosaic.Tactic Idealize.ShloMosaic.ValueIdx
open Idealize.ShloMosaic.Pipeline (Dat)
open Cert.PairDist

theorem hz3 : (![0, 0, 0] : Fin 3 → Nat) = fun _ => 0 := funext fun a => by fin_cases a <;> rfl
theorem hz2 : (![0, 0] : Fin 2 → Nat) = fun _ => 0 := funext fun a => by fin_cases a <;> rfl

/-! ## What each case of the body leaves in the two blocks -/

section Cases

variable {F : FTy → Type} [FloatOps F]

/-- Away from a group's first point the body leaves, in the block of sums holding `acc`, the column sums of
    the data block `x` added to `acc`: its one store covers the block. -/
theorem sums_later (c : Dev nD) (i : grid0.Coords) (a2 : Memref sig .tc .vmem S256x4096 .f32) (h2 : a2.IsWhole)
    (a3 : Memref sig .tc .vmem S1x8x4096 .f32) (h3 : a3.IsWhole) (a4 : Memref sig .tc .vmem S1x8x4096 .f32) (h4 : a4.IsWhole)
    (hc : ¬cond0_0 i) (x : Vec F S256x4096 .f32) (acc acc' : Vec F S1x8x4096 .f32) :
    out0_B_1 c i a2 h2 a3 h3 a4 h4 hc x acc acc' = k0_pay3 x acc := by
  unfold out0_B_1
  rw [View.read_writes_eq_canon _ _ _ (cover0_B_1 c i a2 h2 a3 h3 a4 h4 hc x acc acc')]
  unfold kernelRun0_B
  dsimp only
  rw [View.canon_unit_zero hz3]
  simp only [View.readAt_eq_ld, h2.read_unread, h3.read_unread, View.ld_unit_zero (S := S256x4096) hz2,
    View.ld_unit_zero (S := S1x8x4096) hz3]

/-- Likewise the block of sums of squares. -/
theorem squares_later (c : Dev nD) (i : grid0.Coords) (a2 : Memref sig .tc .vmem S256x4096 .f32) (h2 : a2.IsWhole)
    (a3 : Memref sig .tc .vmem S1x8x4096 .f32) (h3 : a3.IsWhole) (a4 : Memref sig .tc .vmem S1x8x4096 .f32) (h4 : a4.IsWhole)
    (hc : ¬cond0_0 i) (x : Vec F S256x4096 .f32) (acc acc' : Vec F S1x8x4096 .f32) :
    out0_B_2 c i a2 h2 a3 h3 a4 h4 hc x acc acc' = k0_pay4 x acc' := by
  unfold out0_B_2
  rw [View.read_writes_eq_canon _ _ _ (cover0_B_2 c i a2 h2 a3 h3 a4 h4 hc x acc acc')]
  unfold kernelRun0_B
  dsimp only
  rw [View.canon_unit_zero hz3]
  simp only [View.readAt_eq_ld, h2.read_unread, h4.read_unread, View.ld_unit_zero (S := S256x4096) hz2,
    View.ld_unit_zero (S := S1x8x4096) hz3]

/-- At a group's first point the body first stores the zero block, reads it back, and adds the column sums to
    that. -/
theorem sums_first (c : Dev nD) (i : grid0.Coords) (a2 : Memref sig .tc .vmem S256x4096 .f32) (h2 : a2.IsWhole)
    (a3 : Memref sig .tc .vmem S1x8x4096 .f32) (h3 : a3.IsWhole) (a4 : Memref sig .tc .vmem S1x8x4096 .f32) (h4 : a4.IsWhole)
    (hc : cond0_0 i) (x : Vec F S256x4096 .f32) :
    out0_A_1 c i a2 h2 a3 h3 a4 h4 hc x = k0_pay3 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S1x8x4096) hz3, View.readCov_unit_zero (S := S1x8x4096) _ hz3]
  simp only [View.readAt_eq_ld, h2.read_unread, View.ld_unit_zero (S := S256x4096) hz2]

/-- Likewise the block of sums of squares. -/
theorem squares_first (c : Dev nD) (i : grid0.Coords) (a2 : Memref sig .tc .vmem S256x4096 .f32) (h2 : a2.IsWhole)
    (a3 : Memref sig .tc .vmem S1x8x4096 .f32) (h3 : a3.IsWhole) (a4 : Memref sig .tc .vmem S1x8x4096 .f32) (h4 : a4.IsWhole)
    (hc : cond0_0 i) (x : Vec F S256x4096 .f32) :
    out0_A_2 c i a2 h2 a3 h3 a4 h4 hc x = k0_pay4 x (k0_pay2 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S1x8x4096) hz3, View.readCov_unit_zero (S := S1x8x4096) _ hz3]
  simp only [View.readAt_eq_ld, h2.read_unread, View.ld_unit_zero (S := S256x4096) hz2]

end Cases

/-! ## The two stores' values at an index, over the extended reals -/

/-- The column sums of a data block, laid out as one row and repeated over the eight rows of the block: at
    column `d` of any row, the sum of the data block's column `d`. -/
theorem colSums_apply (v : FVec Ideal S256x4096 .f32) (u : Fin 1) (r : Fin 8) (d : Fin 4096) :
    broadcastTo S1x8x4096 (shapeCast S1x1x4096 (shapeCast S1x4096
        (multiReduction .add [0] S4096 v 0x00000000#32 reduces_S256x4096_S4096 (.inl rfl) rfl)
        shapeCasts_S4096_S1x4096) shapeCasts_S1x4096_S1x1x4096) broadcasts_S1x1x4096_S1x8x4096 (ix3 u r d)
      = ∑ k : Fin 256, v (ix2 k d) := by
  refine (broadcastTo_apply _ broadcasts_S1x1x4096_S1x8x4096 (ix3 u r d) (ix3 (0 : Fin 1) (0 : Fin 1) d) (fun a => ?_)).trans ?_
  · match a with
    | ⟨0, _⟩ => rfl
    | ⟨1, _⟩ => rfl
    | ⟨2, _⟩ => show d.val = if (4096 : ℕ) = 1 then 0 else d.val; rw [if_neg (by decide)]
  refine (shapeCast_ab_1ab_apply _ shapeCasts_S1x4096_S1x1x4096 (0 : Fin 1) (0 : Fin 1) d).trans ?_
  refine (shapeCast_a_1a_apply _ shapeCasts_S4096_S1x4096 (0 : Fin 1) d).trans ?_
  refine (Ideal.multiReduction_add_single v 0x00000000#32 reduces_S256x4096_S4096 (.inl rfl) rfl (ix1 d)).trans ?_
  refine Finset.sum_congr rfl fun k _ => congrArg v (funext fun a => Fin.ext ?_)
  match a with
  | ⟨0, _⟩ => rfl
  | ⟨1, _⟩ => rfl

/-- The store into the block of sums: what the block held plus the data block's column sum. -/
theorem addSums_apply (v : FVec Ideal S256x4096 .f32) (acc : FVec Ideal S1x8x4096 .f32) (u : Fin 1) (r : Fin 8) (d : Fin 4096) :
    k0_pay3 (F := Ideal) v acc (ix3 u r d) = acc (ix3 u r d) + ∑ k : Fin 256, v (ix2 k d) := by
  unfold k0_pay3
  dsimp only
  rw [shapeCast_self]
  exact congrArg (fun z => acc (ix3 u r d) + z) (colSums_apply v u r d)

/-- The store into the block of sums of squares: what the block held plus the column sum of the squares. -/
theorem addSquares_apply (v : FVec Ideal S256x4096 .f32) (acc : FVec Ideal S1x8x4096 .f32) (u : Fin 1) (r : Fin 8) (d : Fin 4096) :
    k0_pay4 (F := Ideal) v acc (ix3 u r d) = acc (ix3 u r d) + ∑ k : Fin 256, v (ix2 k d) * v (ix2 k d) := by
  unfold k0_pay4
  dsimp only
  rw [shapeCast_self]
  exact congrArg (fun z => acc (ix3 u r d) + z) (colSums_apply (mulf v v) u r d)

/-- The zero block is zero everywhere. -/
theorem zeroBlock_apply (y : S1x8x4096.Idx) : k0_pay1 (F := Ideal) y = 0 := by
  unfold k0_pay1
  exact Ideal.ofBits_zero_f32

theorem zeroBlock'_apply (y : S1x8x4096.Idx) : k0_pay2 (F := Ideal) y = 0 := by
  unfold k0_pay2
  exact Ideal.ofBits_zero_f32

/-! ## The data block at a point, and its column sums -/

/-- The data window's block at point `t` is block `t` of the rows, all columns. -/
theorem dataWin_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Both output windows' block at point `t` is the block of `t`'s group of eight. -/
theorem sumsWin_index : ∀ t : Fin cfg0.N, win0_1.index t (0 : Fin 3) = t.val / 8 ∧ win0_1.index t (1 : Fin 3) = 0
    ∧ win0_1.index t (2 : Fin 3) = 0 :=
  (by decide +kernel : ∀ t : Fin grid0.N, win0_1.index t (0 : Fin 3) = t.val / 8 ∧ win0_1.index t (1 : Fin 3) = 0
    ∧ win0_1.index t (2 : Fin 3) = 0)
theorem squaresWin_index : ∀ t : Fin cfg0.N, win0_2.index t (0 : Fin 3) = t.val / 8 ∧ win0_2.index t (1 : Fin 3) = 0
    ∧ win0_2.index t (2 : Fin 3) = 0 :=
  (by decide +kernel : ∀ t : Fin grid0.N, win0_2.index t (0 : Fin 3) = t.val / 8 ∧ win0_2.index t (1 : Fin 3) = 0
    ∧ win0_2.index t (2 : Fin 3) = 0)

section Run

variable (V : (c : Dev nD) → (b : Ref sig .tc) → Buf (Elt Ideal) ((c : Thread nD τ).loc b))

/-- The data array as the region finds it, and its block at point `t`. -/
def data (c : Dev nD) : S4096x4096.Idx → EReal := V c main_arg0
def dataBlock (c : Dev nD) (t : Fin cfg0.N) : FVec Ideal S256x4096 .f32 := iblk0 V c 0 t

/-- Column `d` of the data by row number; and the column of its squares. -/
def col (c : Dev nD) (d : Fin 4096) : Fin 4096 → EReal := fun n => data V c (ix2 n d)
def colSq (c : Dev nD) (d : Fin 4096) : Fin 4096 → EReal := fun n => data V c (ix2 n d) * data V c (ix2 n d)

/-- Row `k` of the data block at point `t` is row `256 t + k` of the data. -/
theorem dataBlock_apply (c : Dev nD) (t : Fin cfg0.N) (k : Fin 256) (d : Fin 4096) (h : 256 * t.val + k.val < 4096) :
    dataBlock V c t (ix2 k d) = data V c (ix2 ⟨256 * t.val + k.val, h⟩ d) := by
  obtain ⟨e0, e1⟩ := dataWin_index t
  unfold dataBlock data iblk0
  rw [View.read_apply]
  show V c main_arg0 _ = V c main_arg0 _
  refine congrArg (V c main_arg0) (funext fun a => Fin.ext ?_)
  match a with
  | ⟨0, _⟩ => show win0_0.index t (0 : Fin 2) * 256 + 1 * k.val = 256 * t.val + k.val; rw [e0]; omega
  | ⟨1, _⟩ => show win0_0.index t (1 : Fin 2) * 4096 + 1 * d.val = d.val; rw [e1]; omega

/-- So the block's column sum is the sum of block `t` of the column. -/
theorem dataBlock_sum (c : Dev nD) (t : Fin cfg0.N) (d : Fin 4096) :
    ∑ k : Fin 256, dataBlock V c t (ix2 k d) = blockSum (tot (col V c d)) t.val := by
  have hN : t.val < 16 := lt_of_lt_of_eq t.isLt (show cfg0.N = 16 from N_0)
  unfold blockSum
  rw [Finset.sum_range]
  refine Finset.sum_congr rfl fun k _ => ?_
  have hk : 256 * t.val + k.val < 4096 := by have := k.isLt; omega
  rw [dataBlock_apply V c t k d hk, tot_of_lt _ _ hk]
  rfl

theorem dataBlock_sumSq (c : Dev nD) (t : Fin cfg0.N) (d : Fin 4096) :
    ∑ k : Fin 256, dataBlock V c t (ix2 k d) * dataBlock V c t (ix2 k d) = blockSum (tot (colSq V c d)) t.val := by
  have hN : t.val < 16 := lt_of_lt_of_eq t.isLt (show cfg0.N = 16 from N_0)
  unfold blockSum
  rw [Finset.sum_range]
  refine Finset.sum_congr rfl fun k _ => ?_
  have hk : 256 * t.val + k.val < 4096 := by have := k.isLt; omega
  rw [dataBlock_apply V c t k d hk, tot_of_lt _ _ hk]
  rfl

/-! ## The running totals -/

/-- At a group's first point both blocks hold the data block's column sums. -/
theorem at_first (c : Dev nD) (t : Fin cfg0.N) (h0 : t.val % 8 = 0) (u : Fin 1) (r : Fin 8) (d : Fin 4096) :
    (outsAt0 V c t.val t.isLt).1 (ix3 u r d) = blockSum (tot (col V c d)) t.val
    ∧ (outsAt0 V c t.val t.isLt).2 (ix3 u r d) = blockSum (tot (colSq V c d)) t.val := by
  rw [outsAt0_A V c t h0]
  dsimp only
  constructor
  · rw [sums_first c (grid0.coords t) (ms0_0 t) (hs0_0 t) (ms0_1 t) (hs0_1 t) (ms0_2 t) (hs0_2 t) ((hcond0_0 t).mpr h0) (iblk0 V c 0 t)]
    refine (addSums_apply (iblk0 V c 0 t) (k0_pay1 (F := Ideal)) u r d).trans ?_
    rw [zeroBlock_apply, zero_add]
    exact dataBlock_sum V c t d
  · rw [squares_first c (grid0.coords t) (ms0_0 t) (hs0_0 t) (ms0_1 t) (hs0_1 t) (ms0_2 t) (hs0_2 t) ((hcond0_0 t).mpr h0) (iblk0 V c 0 t)]
    refine (addSquares_apply (iblk0 V c 0 t) (k0_pay2 (F := Ideal)) u r d).trans ?_
    rw [zeroBlock'_apply, zero_add]
    exact dataBlock_sumSq V c t d

/-- At a later point both blocks hold what the point before left, plus the data block's column sums. -/
theorem at_later (c : Dev nD) (t : Fin cfg0.N) (h0 : ¬t.val % 8 = 0) (u : Fin 1) (r : Fin 8) (d : Fin 4096) :
    (outsAt0 V c t.val t.isLt).1 (ix3 u r d)
        = (outsAt0 V c (t.val - 1) (Nat.lt_of_le_of_lt (Nat.sub_le _ _) t.isLt)).1 (ix3 u r d) + blockSum (tot (col V c d)) t.val
    ∧ (outsAt0 V c t.val t.isLt).2 (ix3 u r d)
        = (outsAt0 V c (t.val - 1) (Nat.lt_of_le_of_lt (Nat.sub_le _ _) t.isLt)).2 (ix3 u r d) + blockSum (tot (colSq V c d)) t.val := by
  rw [outsAt0_B V c t h0]
  dsimp only
  constructor
  · rw [sums_later c (grid0.coords t) (ms0_0 t) (hs0_0 t) (ms0_1 t) (hs0_1 t) (ms0_2 t) (hs0_2 t) (fun h => h0 ((hcond0_0 t).mp h)) (iblk0 V c 0 t)]
    refine (addSums_apply (iblk0 V c 0 t) _ u r d).trans ?_
    exact congrArg (fun z => (outsAt0 V c (t.val - 1) (Nat.lt_of_le_of_lt (Nat.sub_le _ _) t.isLt)).1 (ix3 u r d) + z)
      (dataBlock_sum V c t d)
  · rw [squares_later c (grid0.coords t) (ms0_0 t) (hs0_0 t) (ms0_1 t) (hs0_1 t) (ms0_2 t) (hs0_2 t) (fun h => h0 ((hcond0_0 t).mp h)) (iblk0 V c 0 t)]
    refine (addSquares_apply (iblk0 V c 0 t) _ u r d).trans ?_
    exact congrArg (fun z => (outsAt0 V c (t.val - 1) (Nat.lt_of_le_of_lt (Nat.sub_le _ _) t.isLt)).2 (ix3 u r d) + z)
      (dataBlock_sumSq V c t d)

/-- After point `n` the two blocks hold, in every row, the running totals of the column and of its squares:
    by induction on the point. -/
theorem running (c : Dev nD) : ∀ (n : ℕ) (h : n < cfg0.N) (u : Fin 1) (r : Fin 8) (d : Fin 4096),
    (outsAt0 V c n h).1 (ix3 u r d) = runSum (tot (col V c d)) n
    ∧ (outsAt0 V c n h).2 (ix3 u r d) = runSum (tot (colSq V c d)) n
  | 0, h, u, r, d => by
    obtain ⟨e1, e2⟩ := at_first V c ⟨0, h⟩ rfl u r d
    exact ⟨e1.trans (runSum_first _ 0 rfl).symm, e2.trans (runSum_first _ 0 rfl).symm⟩
  | n + 1, h, u, r, d => by
    by_cases h0 : (n + 1) % 8 = 0
    · obtain ⟨e1, e2⟩ := at_first V c ⟨n + 1, h⟩ h0 u r d
      exact ⟨e1.trans (runSum_first _ (n + 1) h0).symm, e2.trans (runSum_first _ (n + 1) h0).symm⟩
    · obtain ⟨e1, e2⟩ := at_later V c ⟨n + 1, h⟩ h0 u r d
      obtain ⟨p1, p2⟩ := running c n (Nat.lt_of_succ_lt h) u r d
      refine ⟨e1.trans ?_, e2.trans ?_⟩
      · rw [runSum_next _ n h0]
        exact congrArg (fun z => z + blockSum (tot (col V c d)) (n + 1)) p1
      · rw [runSum_next _ n h0]
        exact congrArg (fun z => z + blockSum (tot (colSq V c d)) (n + 1)) p2

/-! ## The two arrays after the region -/

/-- Group `i`'s block of the array of sums ends holding the total of the group's eight blocks. -/
def sumsArr (c : Dev nD) : S2x8x4096.Idx → EReal := fun i => runSum (tot (col V c (i 2))) (8 * (i 0).val + 7)
def squaresArr (c : Dev nD) : S2x8x4096.Idx → EReal := fun i => runSum (tot (colSq V c (i 2))) (8 * (i 0).val + 7)

/-- What the last point of a group writes back is that group's block of `sumsArr`. -/
theorem flushed_sums (c : Dev nD) (t : Fin cfg0.N) (hf : (cfg0.win 1).flush t = true) :
    (dat0 V c).flushed 1 t = ((cfg0.win 1).blk t).view.read (Elt Ideal) (sumsArr V c) := by
  have h7 : t.val % 8 = 7 := (flush0_1 t).mp hf
  obtain ⟨e0, e1, e2⟩ := sumsWin_index t
  show (cfg0.win 1).cut (grid0.coords t) ((dat0 V c).after 1 t) = _
  rw [after0_1]
  funext y
  obtain ⟨u, r, d, rfl⟩ : ∃ (u : Fin 1) (r : Fin 8) (d : Fin 4096), y = ix3 u r d := ⟨y 0, y 1, y 2, eq_ix3 y⟩
  show (outsAt0 V c t.val t.isLt).1 (ix3 u r d) = sumsArr V c (((cfg0.win 1).blk t).view.emb (ix3 u r d))
  rw [(running V c t.val t.isLt u r d).1]
  have hr : (((cfg0.win 1).blk t).view.emb (ix3 u r d) 0).val = t.val / 8 := by
    show win0_1.index t (0 : Fin 3) * 1 + 1 * u.val = t.val / 8
    rw [e0]; have := u.isLt; omega
  have hc : ((cfg0.win 1).blk t).view.emb (ix3 u r d) 2 = d := Fin.ext (by
    show win0_1.index t (2 : Fin 3) * 4096 + 1 * d.val = d.val
    rw [e2]; omega)
  unfold sumsArr
  exact congrArg₂ (fun dd nn => runSum (tot (col V c dd)) nn) hc.symm (by rw [hr]; omega)

theorem flushed_squares (c : Dev nD) (t : Fin cfg0.N) (hf : (cfg0.win 2).flush t = true) :
    (dat0 V c).flushed 2 t = ((cfg0.win 2).blk t).view.read (Elt Ideal) (squaresArr V c) := by
  have h7 : t.val % 8 = 7 := (flush0_2 t).mp hf
  obtain ⟨e0, e1, e2⟩ := squaresWin_index t
  show (cfg0.win 2).cut (grid0.coords t) ((dat0 V c).after 2 t) = _
  rw [after0_2]
  funext y
  obtain ⟨u, r, d, rfl⟩ : ∃ (u : Fin 1) (r : Fin 8) (d : Fin 4096), y = ix3 u r d := ⟨y 0, y 1, y 2, eq_ix3 y⟩
  show (outsAt0 V c t.val t.isLt).2 (ix3 u r d) = squaresArr V c (((cfg0.win 2).blk t).view.emb (ix3 u r d))
  rw [(running V c t.val t.isLt u r d).2]
  have hr : (((cfg0.win 2).blk t).view.emb (ix3 u r d) 0).val = t.val / 8 := by
    show win0_2.index t (0 : Fin 3) * 1 + 1 * u.val = t.val / 8
    rw [e0]; have := u.isLt; omega
  have hc : ((cfg0.win 2).blk t).view.emb (ix3 u r d) 2 = d := Fin.ext (by
    show win0_2.index t (2 : Fin 3) * 4096 + 1 * d.val = d.val
    rw [e2]; omega)
  unfold squaresArr
  exact congrArg₂ (fun dd nn => runSum (tot (colSq V c dd)) nn) hc.symm (by rw [hr]; omega)

/-- Every index of either array lies in the block its group's last point writes back. -/
theorem covered_sums (i : S2x8x4096.Idx) :
    ∃ t : Fin cfg0.N, (cfg0.win 1).flush t = true ∧ i ∈ ((cfg0.win 1).blk t).view.set := by
  have hi0 : (i 0).val < 2 := (i 0).isLt
  have hi1 : (i 1).val < 8 := (i 1).isLt
  have hi2 : (i 2).val < 4096 := (i 2).isLt
  have ht : 8 * (i 0).val + 7 < cfg0.N := by rw [show cfg0.N = 16 from N_0]; omega
  refine ⟨⟨8 * (i 0).val + 7, ht⟩, (flush0_1 _).mpr (by show (8 * (i 0).val + 7) % 8 = 7; omega), ?_⟩
  obtain ⟨e0, e1, e2⟩ := sumsWin_index ⟨8 * (i 0).val + 7, ht⟩
  have e0' : win0_1.index ⟨8 * (i 0).val + 7, ht⟩ (0 : Fin 3) = (i 0).val := by rw [e0]; show (8 * (i 0).val + 7) / 8 = _; omega
  show i ∈ ((View.whole main_v0_0).slice (win0_1.rect ⟨8 * (i 0).val + 7, ht⟩)).set
  rw [View.set_slice_whole, Rect.mem_set_unit]
  intro a
  match a with
  | ⟨0, _⟩ =>
    show win0_1.index ⟨8 * (i 0).val + 7, ht⟩ (0 : Fin 3) * 1 ≤ (i 0).val ∧ (i 0).val < win0_1.index ⟨8 * (i 0).val + 7, ht⟩ (0 : Fin 3) * 1 + 1
    rw [e0']; omega
  | ⟨1, _⟩ =>
    show win0_1.index ⟨8 * (i 0).val + 7, ht⟩ (1 : Fin 3) * 8 ≤ (i 1).val ∧ (i 1).val < win0_1.index ⟨8 * (i 0).val + 7, ht⟩ (1 : Fin 3) * 8 + 8
    rw [e1]; omega
  | ⟨2, _⟩ =>
    show win0_1.index ⟨8 * (i 0).val + 7, ht⟩ (2 : Fin 3) * 4096 ≤ (i 2).val ∧ (i 2).val < win0_1.index ⟨8 * (i 0).val + 7, ht⟩ (2 : Fin 3) * 4096 + 4096
    rw [e2]; omega

theorem covered_squares (i : S2x8x4096.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 4096 := (i 2).isLt
  have ht : 8 * (i 0).val + 7 < cfg0.N := by rw [show cfg0.N = 16 from N_0]; omega
  refine ⟨⟨8 * (i 0).val + 7, ht⟩, (flush0_2 _).mpr (by show (8 * (i 0).val + 7) % 8 = 7; omega), ?_⟩
  obtain ⟨e0, e1, e2⟩ := squaresWin_index ⟨8 * (i 0).val + 7, ht⟩
  have e0' : win0_2.index ⟨8 * (i 0).val + 7, ht⟩ (0 : Fin 3) = (i 0).val := by rw [e0]; show (8 * (i 0).val + 7) / 8 = _; omega
  show i ∈ ((View.whole main_v0_1).slice (win0_2.rect ⟨8 * (i 0).val + 7, ht⟩)).set
  rw [View.set_slice_whole, Rect.mem_set_unit]
  intro a
  match a with
  | ⟨0, _⟩ =>
    show win0_2.index ⟨8 * (i 0).val + 7, ht⟩ (0 : Fin 3) * 1 ≤ (i 0).val ∧ (i 0).val < win0_2.index ⟨8 * (i 0).val + 7, ht⟩ (0 : Fin 3) * 1 + 1
    rw [e0']; omega
  | ⟨1, _⟩ =>
    show win0_2.index ⟨8 * (i 0).val + 7, ht⟩ (1 : Fin 3) * 8 ≤ (i 1).val ∧ (i 1).val < win0_2.index ⟨8 * (i 0).val + 7, ht⟩ (1 : Fin 3) * 8 + 8
    rw [e1]; omega
  | ⟨2, _⟩ =>
    show win0_2.index ⟨8 * (i 0).val + 7, ht⟩ (2 : Fin 3) * 4096 ≤ (i 2).val ∧ (i 2).val < win0_2.index ⟨8 * (i 0).val + 7, ht⟩ (2 : Fin 3) * 4096 + 4096
    rw [e2]; omega

/-- THE REGION'S RESULT: after it, the array of sums holds in group `i`'s block, at column `d` of every row, the
    total of the group's eight blocks of column `d`; the array of sums of squares likewise. -/
theorem sums_final (c : Dev nD) : (dat0 V c).arrAt 1 cfg0.N = sumsArr V c :=
  (dat0 V c).arrAt_eq_of_cover 1 (sumsArr V c) (flushed_sums V c) covered_sums
theorem squares_final (c : Dev nD) : (dat0 V c).arrAt 2 cfg0.N = squaresArr V c :=
  (dat0 V c).arrAt_eq_of_cover 2 (squaresArr V c) (flushed_squares V c) covered_squares

end Run

end Cert.KernelIdeal.ColSums

end
-- ==== Proof.Projection.lean ====
/-
  The second region: from the data, the two rows of column sums, the weights and the bias, the result array.

  The grid has sixteen points; point `t` reads rows `256 t … 256 t + 255` of the data and the whole of the
  four other arrays, and writes rows `256 t … 256 t + 255` of the result.  At row `p` of the block and output
  `q` the body's value is the inner product over the 4096 columns `k` of
  `log (sqrt (max (Q k - 2 · x p k · S k + 4096 · (x p k)², 0)) + ε)` with the weights' row `q`, plus the bias at
  `q`: a product of matrices into a zero accumulator is a plain sum over the extended reals, and a change of
  float format is the identity.  The sixteen blocks tile the result array.
-/
import proofs.«177342_j21766894256326_2_alg».proof.Proof.Gen.KernelIdeal.Frame
import proofs.«177342_j21766894256326_2_alg».proof.Proof.PairDist
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Projection

open Cert.KernelIdeal Cert.KernelIdeal.Gen Idealize.ShloMosaic Idealize.ShloMosaic.TcCoe Idealize.SL.Sem
open Idealize.ShloMosaic.Tactic Idealize.ShloMosaic.ValueIdx
open Idealize.ShloMosaic.Pipeline (Dat)
open Cert.PairDist

theorem hz2 : (![0, 0] : Fin 2 → Nat) = fun _ => 0 := funext fun a => by fin_cases a <;> rfl

/-! ## The body's value at an index -/

/-- The product's left operand at output `(p, q)` and contraction index `k` is read at `(p, k)`, its right operand
    at `(q, k)`: both operands are contracted along their second axis. -/
theorem lhs_row (j : S256x64.Idx) (k : dot_S256x4096_S64x4096_S256x64_1_1_0_0_n_n.contr.Idx) : (dot_S256x4096_S64x4096_S256x64_1_1_0_0_n_n.lhsIdx j k 0).val = (j 0).val := by
  unfold DotDims.lhsIdx
  rw [dif_neg (show ¬(0 : Fin S256x4096.rank) ∈ dot_S256x4096_S64x4096_S256x64_1_1_0_0_n_n.lhsBatch by decide),
    dif_pos (show (0 : Fin S256x4096.rank) ∈ dot_S256x4096_S64x4096_S256x64_1_1_0_0_n_n.lhsNonContracting by decide)]
  rfl
theorem rhs_row (j : S256x64.Idx) (k : dot_S256x4096_S64x4096_S256x64_1_1_0_0_n_n.contr.Idx) : (dot_S256x4096_S64x4096_S256x64_1_1_0_0_n_n.rhsIdx j k 0).val = (j 1).val := by
  unfold DotDims.rhsIdx
  rw [dif_neg (show ¬(0 : Fin S64x4096.rank) ∈ dot_S256x4096_S64x4096_S256x64_1_1_0_0_n_n.rhsBatch by decide),
    dif_pos (show (0 : Fin S64x4096.rank) ∈ dot_S256x4096_S64x4096_S256x64_1_1_0_0_n_n.rhsNonContracting by decide)]
  rfl

/-- The body's one store, at row `p` of the block and output `q`. -/
theorem body_apply (x0 : FVec Ideal S256x4096 .f32) (x1 x2 : FVec Ideal S1x4096 .f32) (x3 : FVec Ideal S64x4096 .bf16)
    (x4 : FVec Ideal S1x64 .f32) (p : Fin 256) (q : Fin 64) :
    k1_pay1 (F := Ideal) x0 x1 x2 x3 x4 (ix2 p q)
      = (∑ k : Fin 4096, logDist (x2 (ix2 (0 : Fin 1) k)) (x1 (ix2 (0 : Fin 1) k)) (x0 (ix2 p k)) * x3 (ix2 q k))
        + x4 (ix2 (0 : Fin 1) q) := by
  unfold k1_pay1
  try dsimp only
  simp only [shapeCast_self]
  refine congrArg₂ (fun a b : EReal => a + b) ?_ (broadcastTo_1b_ab_apply x4 broadcasts_S1x64_S256x64 p q)
  refine (Ideal.matmul_constant_zero_apply dot_S256x4096_S64x4096_S256x64_1_1_0_0_n_n none _ x3 (ix2 p q)).trans ?_
  rw [← Equiv.sum_comp (ValueIdx.contrEquiv1 dot_S256x4096_S64x4096_S256x64_1_1_0_0_n_n 4096 rfl rfl).symm]
  refine Finset.sum_congr rfl fun k _ => ?_
  have hk := ValueIdx.contrEquiv1_symm_val dot_S256x4096_S64x4096_S256x64_1_1_0_0_n_n 4096 rfl rfl k
  have el : dot_S256x4096_S64x4096_S256x64_1_1_0_0_n_n.lhsIdx (ix2 p q) ((ValueIdx.contrEquiv1 dot_S256x4096_S64x4096_S256x64_1_1_0_0_n_n 4096 rfl rfl).symm k) = ix2 p k :=
    funext fun a => Fin.ext (by
      match a with
      | ⟨0, _⟩ => exact lhs_row _ _
      | ⟨1, _⟩ => exact (dot_S256x4096_S64x4096_S256x64_1_1_0_0_n_n.lhsIdx_val_of_single rfl _ _).trans hk)
  have er : dot_S256x4096_S64x4096_S256x64_1_1_0_0_n_n.rhsIdx (ix2 p q) ((ValueIdx.contrEquiv1 dot_S256x4096_S64x4096_S256x64_1_1_0_0_n_n 4096 rfl rfl).symm k) = ix2 q k :=
    funext fun a => Fin.ext (by
      match a with
      | ⟨0, _⟩ => exact rhs_row _ _
      | ⟨1, _⟩ => exact (dot_S256x4096_S64x4096_S256x64_1_1_0_0_n_n.rhsIdx_val_of_single rfl _ _).trans hk)
  rw [el, er]
  refine congrArg (fun z : EReal => z * x3 (ix2 q k)) ?_
  simp only [Idealize.ShloMosaic.truncf, Idealize.ShloMosaic.log, Idealize.ShloMosaic.addf, Idealize.ShloMosaic.sqrt,
    Idealize.ShloMosaic.maximumf, Idealize.ShloMosaic.subf, Idealize.ShloMosaic.mulf, Idealize.ShloMosaic.broadcast]
  rw [broadcastTo_1b_ab_apply x2 broadcasts_S1x4096_S256x4096 p k, broadcastTo_1b_ab_apply x1 broadcasts_S1x4096_S256x4096 p k]
  rfl

/-! ## The windows' blocks -/

/-- The data window's and the result window's block at point `t` is block `t` of the rows; the four other windows
    stay on their array's one block. -/
theorem win_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0)

section Run

variable (V : (c : Dev nD) → (b : Ref sig .tc) → Buf (Elt Ideal) ((c : Thread nD τ).loc b))

/-- The five arrays as the region finds them. -/
def dataArr (c : Dev nD) : S4096x4096.Idx → EReal := V c main_arg0
def sumRow (c : Dev nD) : S1x4096.Idx → EReal := V c main_v4
def squareRow (c : Dev nD) : S1x4096.Idx → EReal := V c main_v8
def weights (c : Dev nD) : S64x4096.Idx → EReal := V c main_v9
def biasRow (c : Dev nD) : S1x64.Idx → EReal := V c main_v10

/-- Their blocks at point `t`. -/
def dataBlk (c : Dev nD) (t : Fin cfg1.N) : FVec Ideal S256x4096 .f32 := iblk1 V c 0 t
def sumBlk (c : Dev nD) (t : Fin cfg1.N) : FVec Ideal S1x4096 .f32 := iblk1 V c 1 t
def squareBlk (c : Dev nD) (t : Fin cfg1.N) : FVec Ideal S1x4096 .f32 := iblk1 V c 2 t
def weightBlk (c : Dev nD) (t : Fin cfg1.N) : FVec Ideal S64x4096 .bf16 := iblk1 V c 3 t
def biasBlk (c : Dev nD) (t : Fin cfg1.N) : FVec Ideal S1x64 .f32 := iblk1 V c 4 t

theorem dataBlk_apply (c : Dev nD) (t : Fin cfg1.N) (p : Fin 256) (k : Fin 4096) (h : 256 * t.val + p.val < 4096) :
    dataBlk V c t (ix2 p k) = dataArr V c (ix2 ⟨256 * t.val + p.val, h⟩ k) := by
  obtain ⟨e0, e1, -⟩ := win_index t
  unfold dataBlk dataArr iblk1
  rw [View.read_apply]
  show V c main_arg0 _ = V c main_arg0 _
  refine congrArg (V c main_arg0) (funext fun a => Fin.ext ?_)
  match a with
  | ⟨0, _⟩ => show win1_0.index t (0 : Fin 2) * 256 + 1 * p.val = 256 * t.val + p.val; rw [e0]; omega
  | ⟨1, _⟩ => show win1_0.index t (1 : Fin 2) * 4096 + 1 * k.val = k.val; rw [e1]; omega

theorem sumBlk_apply (c : Dev nD) (t : Fin cfg1.N) (k : Fin 4096) :
    sumBlk V c t (ix2 (0 : Fin 1) k) = sumRow V c (ix2 (0 : Fin 1) k) := by
  obtain ⟨-, -, e0, e1, -⟩ := win_index t
  unfold sumBlk sumRow iblk1
  rw [View.read_apply]
  show V c main_v4 _ = V c main_v4 _
  refine congrArg (V c main_v4) (funext fun a => Fin.ext ?_)
  match a with
  | ⟨0, _⟩ => show win1_1.index t (0 : Fin 2) * 1 + 1 * 0 = 0; rw [e0]
  | ⟨1, _⟩ => show win1_1.index t (1 : Fin 2) * 4096 + 1 * k.val = k.val; rw [e1]; omega

theorem squareBlk_apply (c : Dev nD) (t : Fin cfg1.N) (k : Fin 4096) :
    squareBlk V c t (ix2 (0 : Fin 1) k) = squareRow V c (ix2 (0 : Fin 1) k) := by
  obtain ⟨-, -, -, -, e0, e1, -⟩ := win_index t
  unfold squareBlk squareRow iblk1
  rw [View.read_apply]
  show V c main_v8 _ = V c main_v8 _
  refine congrArg (V c main_v8) (funext fun a => Fin.ext ?_)
  match a with
  | ⟨0, _⟩ => show win1_2.index t (0 : Fin 2) * 1 + 1 * 0 = 0; rw [e0]
  | ⟨1, _⟩ => show win1_2.index t (1 : Fin 2) * 4096 + 1 * k.val = k.val; rw [e1]; omega

theorem weightBlk_apply (c : Dev nD) (t : Fin cfg1.N) (q : Fin 64) (k : Fin 4096) :
    weightBlk V c t (ix2 q k) = weights V c (ix2 q k) := by
  obtain ⟨-, -, -, -, -, -, e0, e1, -⟩ := win_index t
  unfold weightBlk weights iblk1
  rw [View.read_apply]
  show V c main_v9 _ = V c main_v9 _
  refine congrArg (V c main_v9) (funext fun a => Fin.ext ?_)
  match a with
  | ⟨0, _⟩ => show win1_3.index t (0 : Fin 2) * 64 + 1 * q.val = q.val; rw [e0]; omega
  | ⟨1, _⟩ => show win1_3.index t (1 : Fin 2) * 4096 + 1 * k.val = k.val; rw [e1]; omega

theorem biasBlk_apply (c : Dev nD) (t : Fin cfg1.N) (q : Fin 64) :
    biasBlk V c t (ix2 (0 : Fin 1) q) = biasRow V c (ix2 (0 : Fin 1) q) := by
  obtain ⟨-, -, -, -, -, -, -, -, e0, e1, -⟩ := win_index t
  unfold biasBlk biasRow iblk1
  rw [View.read_apply]
  show V c main_v10 _ = V c main_v10 _
  refine congrArg (V c main_v10) (funext fun a => Fin.ext ?_)
  match a with
  | ⟨0, _⟩ => show win1_4.index t (0 : Fin 2) * 1 + 1 * 0 = 0; rw [e0]
  | ⟨1, _⟩ => show win1_4.index t (1 : Fin 2) * 64 + 1 * q.val = q.val; rw [e1]; omega

/-! ## The result array -/

/-- The result at row `r`, output `o`, of the five arrays as the region finds them. -/
def outAt (c : Dev nD) (r : Fin 4096) (o : Fin 64) : EReal :=
  result (fun r k => dataArr V c (ix2 r k)) (fun o k => weights V c (ix2 o k)) (fun o => biasRow V c (ix2 (0 : Fin 1) o))
    (fun k => sumRow V c (ix2 (0 : Fin 1) k)) (fun k => squareRow V c (ix2 (0 : Fin 1) k)) r o
def outArr (c : Dev nD) : S4096x64.Idx → EReal := fun i => outAt V c (i 0) (i 1)

/-- What point `t` writes back is block `t` of `outArr`. -/
theorem flushed_out (c : Dev nD) (t : Fin cfg1.N) :
    (dat1 V c).flushed 5 t = ((cfg1.win 5).blk t).view.read (Elt Ideal) (outArr V c) := by
  have hN : t.val < 16 := lt_of_lt_of_eq t.isLt (show cfg1.N = 16 from N_1)
  obtain ⟨-, -, -, -, -, -, -, -, -, -, e0, e1⟩ := win_index t
  show (cfg1.win 5).cut (grid1.coords t) ((dat1 V c).after 5 t) = _
  rw [after1_5]
  unfold out1_5
  rw [View.canon_unit_zero hz2]
  simp only [View.ld_unit_zero (S := S256x4096) hz2, View.ld_unit_zero (S := S1x4096) hz2,
    View.ld_unit_zero (S := S64x4096) hz2, View.ld_unit_zero (S := S1x64) hz2]
  funext y
  obtain ⟨p, q, rfl⟩ : ∃ (p : Fin 256) (q : Fin 64), y = ix2 p q := ⟨y 0, y 1, eq_ix2 y⟩
  have hp : 256 * t.val + p.val < 4096 := by have := p.isLt; omega
  show k1_pay1 (F := Ideal) (dataBlk V c t) (sumBlk V c t) (squareBlk V c t) (weightBlk V c t) (biasBlk V c t) (ix2 p q)
    = outAt V c (((cfg1.win 5).blk t).view.emb (ix2 p q) 0) (((cfg1.win 5).blk t).view.emb (ix2 p q) 1)
  have h0 : ((cfg1.win 5).blk t).view.emb (ix2 p q) 0 = ⟨256 * t.val + p.val, hp⟩ := Fin.ext (by
    show win1_5.index t (0 : Fin 2) * 256 + 1 * p.val = 256 * t.val + p.val
    rw [e0]; omega)
  have h1 : ((cfg1.win 5).blk t).view.emb (ix2 p q) 1 = q := Fin.ext (by
    show win1_5.index t (1 : Fin 2) * 64 + 1 * q.val = q.val
    rw [e1]; omega)
  refine (body_apply (dataBlk V c t) (sumBlk V c t) (squareBlk V c t) (weightBlk V c t) (biasBlk V c t) p q).trans ?_
  refine Eq.trans ?_ (congrArg₂ (outAt V c) h0 h1).symm
  unfold outAt result
  refine congrArg₂ (fun a b : EReal => a + b) (Finset.sum_congr rfl fun k _ => ?_) (biasBlk_apply V c t q)
  rw [squareBlk_apply V c t k, sumBlk_apply V c t k, dataBlk_apply V c t p k hp, weightBlk_apply V c t q k]
  rfl

/-- Every index of the result array lies in the block of its row's point. -/
theorem covered_out (i : S4096x64.Idx) :
    ∃ t : Fin cfg1.N, (cfg1.win 5).flush t = true ∧ i ∈ ((cfg1.win 5).blk t).view.set := by
  have hi0 : (i 0).val < 4096 := (i 0).isLt
  have hi1 : (i 1).val < 64 := (i 1).isLt
  have ht : (i 0).val / 256 < cfg1.N := by rw [show cfg1.N = 16 from N_1]; omega
  refine ⟨⟨(i 0).val / 256, ht⟩, flush1_5 _, ?_⟩
  obtain ⟨-, -, -, -, -, -, -, -, -, -, e0, e1⟩ := win_index ⟨(i 0).val / 256, ht⟩
  have e0' : win1_5.index ⟨(i 0).val / 256, ht⟩ (0 : Fin 2) = (i 0).val / 256 := e0
  show i ∈ ((View.whole main_v11).slice (win1_5.rect ⟨(i 0).val / 256, ht⟩)).set
  rw [View.set_slice_whole, Rect.mem_set_unit]
  intro a
  match a with
  | ⟨0, _⟩ =>
    show win1_5.index ⟨(i 0).val / 256, ht⟩ (0 : Fin 2) * 256 ≤ (i 0).val
      ∧ (i 0).val < win1_5.index ⟨(i 0).val / 256, ht⟩ (0 : Fin 2) * 256 + 256
    rw [e0']; omega
  | ⟨1, _⟩ =>
    show win1_5.index ⟨(i 0).val / 256, ht⟩ (1 : Fin 2) * 64 ≤ (i 1).val
      ∧ (i 1).val < win1_5.index ⟨(i 0).val / 256, ht⟩ (1 : Fin 2) * 64 + 64
    rw [e1]; omega

/-- THE REGION'S RESULT: after it the result array holds `outArr` of the five arrays it found. -/
theorem out_final (c : Dev nD) : (dat1 V c).arrAt 5 cfg1.N = outArr V c :=
  (dat1 V c).arrAt_eq_of_cover 5 (outArr V c) (fun t _ => flushed_out V c t) covered_out

end Run

end Cert.KernelIdeal.Projection

end
-- ==== Proof.Between.lean ====
/-
  Between the two regions: the second region's five input arrays, from the launch memory and the first
  region's two results.

  The data array is not written by anything, so the second region finds it as launched.  The weights reach
  it through a change of float format, the identity on the extended reals; the bias as one row.  Each row of
  column sums is the host's sum, over the two groups, of row 0 of the first region's array: the initial
  value, then the two groups' totals.  Each group's total is the sum of its eight blocks of 256 rows, so by
  the law of sums the row holds, at column `k`, the initial value plus the sum of all 4096 rows of column `k`
  — the one-pass column sum.
-/
import proofs.«177342_j21766894256326_2_alg».proof.Proof.ColSums
import proofs.«177342_j21766894256326_2_alg».proof.Proof.Projection
import Idealize.ShloMosaic.Lib.StableHlo.Run

set_option maxRecDepth 16384

noncomputable section

namespace Cert.KernelIdeal.Between

open Cert.KernelIdeal Cert.KernelIdeal.Gen Idealize.ShloMosaic Idealize.ShloMosaic.TcCoe Idealize.SL.Sem
open Idealize.ShloMosaic.Tactic Idealize.ShloMosaic.ValueIdx Idealize.ShloMosaic.StableHlo
open Idealize.ShloMosaic.Pipeline (Dat)
open Cert.PairDist Cert.KernelIdeal.ColSums

variable (m : (ℓ : Loc nD τ sig) → Buf (Elt Ideal) ℓ) (ρ : Dev nD → PrngReg)

/-! ## The host's sum over the two groups, at an index -/

/-- Row 0 of each group of an array of two groups of eight rows, summed over the groups from the initial value and
    laid out as one row: at column `k`, the initial value plus the two groups' entries. -/
theorem groupSum_apply (A : S2x8x4096.Idx → EReal) (u : Fin 1) (k : Fin 4096) :
    broadcastInDim S1x4096 ![1] bcast_S4096_S1x4096_1
        (Host.reduceAdd (F := Ideal)
          (shapeCast S2x4096 (extractStridedSlice S2x1x4096 ![0, 0, 0] A slices_S2x8x4096_S2x1x4096_0_0_0)
            shapeCasts_S2x1x4096_S2x4096)
          (constant (F := Ideal) S_ .f32 0x00000000#32) reducesTo_S2x4096_S4096_d0 h_S_) (ix2 u k)
      = Ideal.ofBits .f32 0x00000000#32 + ∑ i : Fin 2, A (ix3 i (0 : Fin 8) k) := by
  refine (broadcastInDim_apply _ bcast_S4096_S1x4096_1 _ (ix2 u k) (ix1 k) (fun a => ?_)).trans ?_
  · match a with
    | ⟨0, _⟩ => show k.val = if (4096 : ℕ) = 1 then 0 else k.val; rw [if_neg (by decide)]
  simp only [Host.reduceAdd, Ideal.hostReduceAdd_def]
  rw [Ideal.hostReduceAdd_single reducesTo_S2x4096_S4096_d0 (by decide)]
  refine congrArg₂ (fun a b : EReal => a + b) rfl (Finset.sum_congr rfl fun i _ => ?_)
  refine (shapeCast_apply _ shapeCasts_S2x1x4096_S2x4096 _ (ix3 i (0 : Fin 1) k) ?_).trans ?_
  · rw [Shape.rowMajor_val_three, Shape.rowMajor_val_two]
    show (i.val * 1 + 0) * 4096 + k.val = i.val * 4096 + k.val
    omega
  refine extractStridedSlice_apply _ A slices_S2x8x4096_S2x1x4096_0_0_0 (ix3 i (0 : Fin 1) k) (ix3 i (0 : Fin 8) k) (fun a => ?_)
  match a with
  | ⟨0, _⟩ => show i.val = 0 + i.val; omega
  | ⟨1, _⟩ => show 0 = 0 + 0; rfl
  | ⟨2, _⟩ => show k.val = 0 + k.val; omega

/-! ## The five arrays the second region finds -/

/-- The data: as launched. -/
theorem data_eq (c : Dev nD) :
    @Eq (FVec Ideal S4096x4096 .f32) (V2 m ρ c main_arg0) (m ((c : Thread nD τ).loc main_arg0)) :=
  ((W3_arr m ρ c 0).trans (((dat1 (V2 m ρ) c).arrAt_in 0 rfl _).trans (A_eq1 (V2 m ρ) c 0))).symm.trans (W3_main_arg0 m ρ c)

/-- The weights: the launched weights in the narrower float format. -/
theorem weights_eq (c : Dev nD) :
    @Eq (FVec Ideal S64x4096 .bf16) (V2 m ρ c main_v9)
      (truncf (F := Ideal) (s := S64x4096) (φ := .f32) .bf16 (m ((c : Thread nD τ).loc main_arg1)) bitsLt_bf16_f32) := by
  show StableHlo.after hostOps1 (W1 m ρ c) (Proc.devRef .tc main_v9) = _
  after_results
  rw [W1_of_ne m ρ c main_arg1 (by decide)]

/-- The bias: the launched bias as one row. -/
theorem bias_eq (c : Dev nD) :
    @Eq (FVec Ideal S1x64 .f32) (V2 m ρ c main_v10)
      (shapeCast S1x64 (m ((c : Thread nD τ).loc main_arg2) : FVec Ideal S64 .f32) shapeCasts_S64_S1x64) := by
  show StableHlo.after hostOps1 (W1 m ρ c) (Proc.devRef .tc main_v10) = _
  after_results
  rw [W1_of_ne m ρ c main_arg2 (by decide)]
  rfl

/-- The row of column sums: the host's sum over the groups of the first region's array of sums. -/
theorem sumRow_eq (c : Dev nD) :
    @Eq (FVec Ideal S1x4096 .f32) (V2 m ρ c main_v4) (broadcastInDim S1x4096 ![1] bcast_S4096_S1x4096_1
        (Host.reduceAdd (F := Ideal)
          (shapeCast S2x4096 (extractStridedSlice S2x1x4096 ![0, 0, 0] (sumsArr (V0 m ρ) c) slices_S2x8x4096_S2x1x4096_0_0_0)
            shapeCasts_S2x1x4096_S2x4096)
          (constant (F := Ideal) S_ .f32 0x00000000#32) reducesTo_S2x4096_S4096_d0 h_S_)) := by
  show StableHlo.after hostOps1 (W1 m ρ c) (Proc.devRef .tc main_v4) = _
  after_results
  rw [show W1 m ρ c (Proc.devRef .tc main_v0_0) = sumsArr (V0 m ρ) c from (W1_arr m ρ c 1).trans (sums_final (V0 m ρ) c)]
  rfl

/-- The row of column sums of squares, likewise. -/
theorem squareRow_eq (c : Dev nD) :
    @Eq (FVec Ideal S1x4096 .f32) (V2 m ρ c main_v8) (broadcastInDim S1x4096 ![1] bcast_S4096_S1x4096_1
        (Host.reduceAdd (F := Ideal)
          (shapeCast S2x4096 (extractStridedSlice S2x1x4096 ![0, 0, 0] (squaresArr (V0 m ρ) c) slices_S2x8x4096_S2x1x4096_0_0_0)
            shapeCasts_S2x1x4096_S2x4096)
          (constant (F := Ideal) S_ .f32 0x00000000#32) reducesTo_S2x4096_S4096_d0 h_S_)) := by
  show StableHlo.after hostOps1 (W1 m ρ c) (Proc.devRef .tc main_v8) = _
  after_results
  rw [show W1 m ρ c (Proc.devRef .tc main_v0_1) = squaresArr (V0 m ρ) c from (W1_arr m ρ c 2).trans (squares_final (V0 m ρ) c)]
  rfl

/-! ## The two rows are the one-pass column sums -/

/-- The launched data by row and column. -/
def x (c : Dev nD) : Fin 4096 → Fin 4096 → EReal :=
  fun r k => (m ((c : Thread nD τ).loc main_arg0) : FVec Ideal S4096x4096 .f32) (ix2 r k)

theorem sumRow_apply (c : Dev nD) (k : Fin 4096) :
    @Eq EReal ((V2 m ρ c main_v4 : FVec Ideal S1x4096 .f32) (ix2 (0 : Fin 1) k)) (colSum (x m c) k) := by
  rw [sumRow_eq m ρ c]
  refine (groupSum_apply (sumsArr (V0 m ρ) c) 0 k).trans ?_
  unfold colSum
  refine congrArg (fun z : EReal => Ideal.ofBits .f32 0x00000000#32 + z) ?_
  show ∑ i : Fin 2, runSum (tot (col (V0 m ρ) c k)) (8 * i.val + 7) = _
  exact (Finset.sum_range (fun i => runSum (tot (col (V0 m ρ) c k)) (8 * i + 7))).symm.trans (groups_eq_sum _)

theorem squareRow_apply (c : Dev nD) (k : Fin 4096) :
    @Eq EReal ((V2 m ρ c main_v8 : FVec Ideal S1x4096 .f32) (ix2 (0 : Fin 1) k)) (colSum (fun r k => x m c r k * x m c r k) k) := by
  rw [squareRow_eq m ρ c]
  refine (groupSum_apply (squaresArr (V0 m ρ) c) 0 k).trans ?_
  unfold colSum
  refine congrArg (fun z : EReal => Ideal.ofBits .f32 0x00000000#32 + z) ?_
  show ∑ i : Fin 2, runSum (tot (colSq (V0 m ρ) c k)) (8 * i.val + 7) = _
  exact (Finset.sum_range (fun i => runSum (tot (colSq (V0 m ρ) c k)) (8 * i + 7))).symm.trans (groups_eq_sum _)

end Cert.KernelIdeal.Between

end
-- ==== Proof.Spec.lean ====
/-
  The result as ONE function of the three argument arrays: the data `x`, the weights `w`, the bias `b`.
  Both column-sum vectors are formed in one pass over all the rows.
-/
import proofs.«177342_j21766894256326_2_alg».proof.Proof.PairDist
import Idealize.ShloMosaic.Lib.ValueIdx

noncomputable section

namespace Cert.PairDist

open Idealize.ShloMosaic Idealize.ShloMosaic.ValueIdx

/-- THE SPECIFICATION: at row `r` and output `o`, the inner product over the columns `k` of
    `log (sqrt (max (Q k - 2 · x r k · S k + 4096 · (x r k)², 0)) + ε)` with `w o k`, plus `b o`, where `S k` and
    `Q k` are the sums of column `k` of `x` and of its squares. -/
def spec (x : (⟨2, ![4096, 4096]⟩ : Shape).Idx → EReal) (w : (⟨2, ![64, 4096]⟩ : Shape).Idx → EReal)
    (b : (⟨1, ![64]⟩ : Shape).Idx → EReal) : (⟨2, ![4096, 64]⟩ : Shape).Idx → EReal :=
  fun i => result (fun r k => x (ix2 r k)) (fun o k => w (ix2 o k)) (fun o => b (ix1 o))
    (colSum fun r k => x (ix2 r k)) (colSum fun r k => x (ix2 r k) * x (ix2 r k)) (i 0) (i 1)

end Cert.PairDist

end
-- ==== Proof.KernelValue.lean ====
/-
  The idealized kernel's result: the specification of the three argument arrays as launched.

  The second region leaves, in the result array, the specification's `result` of the five arrays it found;
  those are the launched data, the launched weights (through a change of float format, the identity here), the
  launched bias as a row, and the two rows of one-pass column sums of the launched data.
-/
import proofs.«177342_j21766894256326_2_alg».proof.Proof.KernelRun
import proofs.«177342_j21766894256326_2_alg».proof.Proof.Between
import proofs.«177342_j21766894256326_2_alg».proof.Proof.Spec

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx
open Cert.PairDist Cert.KernelIdeal.Projection Cert.KernelIdeal.Between

variable (m : (ℓ : Loc nD τ sig) → Buf (Elt Ideal) ℓ) (ρ : Dev nD → PrngReg)

/-- The result array after the run is the specification of the launched arguments. -/
theorem result_eq (c : Dev nD) :
    (dat1 (V2 m ρ) c).arrAt 5 cfg1.N
      = spec (m ((c : Thread nD τ).loc main_arg0)) (m ((c : Thread nD τ).loc main_arg1)) (m ((c : Thread nD τ).loc main_arg2)) := by
  rw [out_final (V2 m ρ) c]
  funext i
  have hX : (fun r k => dataArr (V2 m ρ) c (ix2 r k)) = x m c := by
    funext r k; unfold dataArr x; rw [data_eq m ρ c]
  have hW : (fun o k => weights (V2 m ρ) c (ix2 o k))
      = fun (o : Fin 64) (k : Fin 4096) => (m ((c : Thread nD τ).loc main_arg1) : FVec Ideal S64x4096 .f32) (ix2 o k) := by
    funext o k; unfold weights; rw [weights_eq m ρ c]; rfl
  have hb : (fun o => biasRow (V2 m ρ) c (ix2 (0 : Fin 1) o))
      = fun (o : Fin 64) => (m ((c : Thread nD τ).loc main_arg2) : FVec Ideal S64 .f32) (ix1 o) := by
    funext o; unfold biasRow; rw [bias_eq m ρ c]; exact shapeCast_a_1a_apply _ shapeCasts_S64_S1x64 0 o
  have hS : (fun k => sumRow (V2 m ρ) c (ix2 (0 : Fin 1) k)) = colSum (x m c) :=
    funext fun k => sumRow_apply m ρ c k
  have hQ : (fun k => squareRow (V2 m ρ) c (ix2 (0 : Fin 1) k)) = colSum (fun r k => x m c r k * x m c r k) :=
    funext fun k => squareRow_apply m ρ c k
  show outAt (V2 m ρ) c (i 0) (i 1) = _
  unfold outAt spec
  rw [hX, hW, hb, hS, hQ]
  rfl

/-- Every weakly fair execution terminates with the result array at the specification of the launched arguments,
    and the arguments unchanged. -/
theorem run : θ_run defs (onTc (τ := τ) (main (F := Ideal))) ⟨m, fun _ => 0, ρ⟩ (fun r => ∀ c : Dev nD,
      r.2.mem ((c.tc : Thread nD τ).loc main_v11)
        = spec (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Cert.KernelIdeal.RunValue.run_out m ρ)

end Cert.KernelIdeal.Result

end
-- ==== Proof.RefSide.lean ====
/-
  The reference's value: what the host program computes, read index by index, is the specification.

  The host program forms the two column sums in one pass each (the initial value, then all 4096 rows),
  lays each out as a row and repeats it over the rows, applies the same pointwise operations in the same
  order as the kernel's body, contracts the result with the transposed weights and adds the bias repeated
  over the rows.  Read at an index, every one of these steps is the corresponding step of the
  specification; the host's square root and logarithm are the kernel's at the extended reals.
-/
import proofs.«177342_j21766894256326_2_alg».proof.Proof.Gen.ReferenceIdeal.Read
import proofs.«177342_j21766894256326_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open Cert.PairDist

variable (x0 : (⟨S4096x4096, .f32⟩ : BufTy).Contents (Elt Ideal))

/-- The row of column sums, repeated over the rows: at `(r, k)` the sum of column `k`. -/
theorem sums_apply (r k : Fin 4096) :
    val_main_v7 (F := Ideal) x0 (ix2 r k) = colSum (fun r k => x0 (ix2 r k)) k := by
  rw [val_main_v7_apply, val_main_v6_apply, val_main_v0_apply]
  unfold colSum
  refine congrArg₂ (fun a b : EReal => a + b) rfl (Finset.sum_congr rfl fun n _ => congrArg x0 (funext fun a => Fin.ext ?_))
  match a with
  | ⟨0, _⟩ => rfl
  | ⟨1, _⟩ => rfl

/-- The row of column sums of squares, repeated over the rows: at `(r, k)` the sum of the squares of column `k`. -/
theorem squares_apply (r k : Fin 4096) :
    val_main_v9 (F := Ideal) x0 (ix2 r k) = colSum (fun r k => x0 (ix2 r k) * x0 (ix2 r k)) k := by
  rw [val_main_v9_apply, val_main_v3_apply, val_main_v2_apply]
  unfold colSum
  refine congrArg₂ (fun a b : EReal => a + b) rfl (Finset.sum_congr rfl fun n _ => ?_)
  rw [val_main_v1_apply]
  have hj : idx_main_v2 (idx_main_v3 (idx_main_v9 (ix2 r k))) n = ix2 n k := funext fun a => Fin.ext (by
    match a with
    | ⟨0, _⟩ => rfl
    | ⟨1, _⟩ => rfl)
  rw [hj]
  rfl

/-- The intermediate array at `(r, k)`. -/
theorem logDist_apply (r k : Fin 4096) :
    val_main_v20 (F := Ideal) x0 (ix2 r k)
      = logDist (colSum (fun r k => x0 (ix2 r k) * x0 (ix2 r k)) k) (colSum (fun r k => x0 (ix2 r k)) k) (x0 (ix2 r k)) := by
  rw [val_main_v20_apply, val_main_v19_apply, val_main_v17_apply, val_main_v16_apply, val_main_v14_apply,
    val_main_v10_apply, val_main_v8_apply, val_main_v5_apply, val_main_v13_apply, val_main_v11_apply,
    squares_apply, sums_apply, val_main_v4_apply, val_main_v12_apply, val_main_v15_apply, val_main_v18_apply]
  rfl

/-- THE REFERENCE'S RESULT is the specification of its three arguments. -/
theorem result_eq (x1 : (⟨S64x4096, .f32⟩ : BufTy).Contents (Elt Ideal)) (x2 : (⟨S64, .f32⟩ : BufTy).Contents (Elt Ideal)) :
    val_main_v25 (F := Ideal) x0 x1 x2 = spec x0 x1 x2 := by
  funext i
  obtain ⟨r, o, rfl⟩ : ∃ (r : Fin 4096) (o : Fin 64), i = ix2 r o := ⟨i 0, i 1, eq_ix2 i⟩
  rw [val_main_v25_apply, val_main_v22_apply, val_main_v24_apply, val_main_v23_apply]
  show _ = (∑ k : Fin 4096, logDist (colSum (fun r k => x0 (ix2 r k) * x0 (ix2 r k)) k) (colSum (fun r k => x0 (ix2 r k)) k)
      (x0 (ix2 r k)) * x1 (ix2 o k)) + x2 (ix1 o)
  refine congrArg₂ (fun a b : EReal => a + b) (Finset.sum_congr rfl fun k _ => ?_) (congrArg x2 (funext fun a => Fin.ext ?_))
  · have hl : lidx_main_v22 (ix2 r o) k = ix2 r k := funext fun a => Fin.ext (by
      match a with
      | ⟨0, _⟩ => rfl
      | ⟨1, _⟩ => rfl)
    have hr : idx_main_v21 (ridx_main_v22 (ix2 r o) k) = ix2 o k := funext fun a => Fin.ext (by
      match a with
      | ⟨0, _⟩ => rfl
      | ⟨1, _⟩ => rfl)
    rw [hl, val_main_v21_apply, hr, logDist_apply]
  · match a with
    | ⟨0, _⟩ => rfl

end Cert.ReferenceIdeal.RefValue

end
-- ==== Proof.lean ====
/-
  The certificate: a kernel in two grid regions — column sums accumulated block by block, then a
  projection of the log-distances — against the host program that forms the column sums in one pass.

  All three programs run to the end without a fault and leave their arguments as launched: the two
  kernels' runs are the generated ones, the host program's is its run with the result dropped.  The
  idealization rewrote nothing.  Over the extended reals both idealized programs end with the result array
  at ONE function of the arguments (`Cert.PairDist.spec`): the host program by reading its operations index
  by index, the kernel because a column's sum taken 256 rows at a time, eight blocks to a running total and
  the two totals together, is the column's sum — addition is commutative and associative on the extended
  reals, and nothing else differs between the two.  The precondition is never opened.
-/
import proofs.«177342_j21766894256326_2_alg».proof.Defs
import proofs.«177342_j21766894256326_2_alg».proof.Proof.Gen.Kernel
import proofs.«177342_j21766894256326_2_alg».proof.Proof.Gen.Kernel.Frame
import proofs.«177342_j21766894256326_2_alg».proof.Proof.Gen.KernelIdeal
import proofs.«177342_j21766894256326_2_alg».proof.Proof.Gen.KernelIdeal.Frame
import proofs.«177342_j21766894256326_2_alg».proof.Proof.Gen.ReferenceIdeal
import proofs.«177342_j21766894256326_2_alg».proof.Proof.Gen.ReferenceIdeal.Run
import proofs.«177342_j21766894256326_2_alg».proof.Proof.Gen.ReferenceIdeal.Read
import proofs.«177342_j21766894256326_2_alg».proof.Proof.Gen.Pre_finite_inputs
import proofs.«177342_j21766894256326_2_alg».proof.Proof.KernelValue
import proofs.«177342_j21766894256326_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, from memories that agree on the arguments, end with the result at the
    specification of those arguments. -/
theorem algebraic : Cert.algebraic_KernelIdeal_ReferenceIdeal := by
  intro m ρ m' ρ' _ hagree
  refine ⟨fun c => Cert.PairDist.spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
